-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : FVec F S128x128 .f32) (main_arg3 : FVec F S128 .f32) (main_arg4 : FVec F S128x2 .f32) (main_arg5 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S50000x2 : Shape := ⟨2, ![50000, 2]⟩
abbrev S5000x2 : Shape := ⟨2, ![5000, 2]⟩
abbrev S1x128 : Shape := ⟨2, ![1, 128]⟩
abbrev S650000x2 : Shape := ⟨2, ![650000, 2]⟩
abbrev S1x2 : Shape := ⟨2, ![1, 2]⟩

abbrev nBuf : Space → Nat
  | .hbm => 83
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S650000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S50000x128, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x1, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S50000x128, .f32⟩
  | .hbm, ⟨61, _⟩ => ⟨S650000x1, .i32⟩
  | .hbm, ⟨62, _⟩ => ⟨S50000x128, .f32⟩
  | .hbm, ⟨63, _⟩ => ⟨S50000x2, .f32⟩
  | .hbm, ⟨64, _⟩ => ⟨S_, .i32⟩
  | .hbm, ⟨65, _⟩ => ⟨S650000, .i32⟩
  | .hbm, ⟨66, _⟩ => ⟨S650000, .i1⟩
  | .hbm, ⟨67, _⟩ => ⟨S_, .i32⟩
  | .hbm, ⟨68, _⟩ => ⟨S650000, .i32⟩
  | .hbm, ⟨69, _⟩ => ⟨S650000, .i32⟩
  | .hbm, ⟨70, _⟩ => ⟨S650000, .i32⟩
  | .hbm, ⟨71, _⟩ => ⟨S650000x1, .i32⟩
  | .hbm, ⟨72, _⟩ => ⟨S650000x2, .f32⟩
  | .hbm, ⟨73, _⟩ => ⟨S650000x1, .f32⟩
  | .hbm, ⟨74, _⟩ => ⟨S650000x2, .f32⟩
  | .hbm, ⟨75, _⟩ => ⟨S650000x2, .f32⟩
  | .hbm, ⟨76, _⟩ => ⟨S_, .f32⟩
  | .hbm, ⟨77, _⟩ => ⟨S50000x2, .f32⟩
  | .hbm, ⟨78, _⟩ => ⟨S650000x1, .i32⟩
  | .hbm, ⟨79, _⟩ => ⟨S50000x2, .f32⟩
  | .hbm, ⟨80, _⟩ => ⟨S1x2, .f32⟩
  | .hbm, ⟨81, _⟩ => ⟨S50000x2, .f32⟩
  | .hbm, ⟨82, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x2, .f32⟩
  | .local _ .vmem, ⟨9, _⟩ => ⟨S5000x2, .f32⟩
  | .local _ .vmem, ⟨10, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  inb_S5000x2_S5000x2_0_0 : ∀ a, (![0, 0] : Fin 2 → Nat) a + S5000x2.size a ≤ S5000x2.size a
  h_S5000x2 : 0 < S5000x2.numel
  bcast_S650000x1_S650000x2_0_1 : S650000x1.BroadcastsInDim S650000x2 (![0, 1] : Fin 2 → Fin S650000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x2_S5000x2_1_0_0_1_n_n_wf : DotDims.WF S5000x128 S128x2 S5000x2 [1] [0] [0] [1] [] []
  gather_S50000x2_S650000x1_S650000x2_1_0_n_n_0_1_12_wf : GatherDims.WF S50000x2 S650000x1 S650000x2 [1] [0] [] [0] [] 1 ![1, 2]
  scatter_S50000x2_S650000x1_S650000x2_1_0_0_1_wf : ScatterDims.WF S50000x2 S650000x1 S650000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x2.size a ≤ S128x2.size a
  hwx1_2 : ∀ i : grid1.Coords, EltTy.bits .f32 = 32 ∨ (Rect.block (s := S128x2) S128x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x2.size a ≤ S50000x2.size a
  hwx1_3 : ∀ i : grid1.Coords, EltTy.bits .f32 = 32 ∨ (Rect.block (s := S50000x2) S5000x2.size (cc1_transform_3 i) (hinb1_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S50000x2_S650000x1_S650000x2_1_0_n_n_0_1_12 : GatherDims S50000x2 S650000x1 S650000x2 where
  offsetDims := [1]
  collapsedSliceDims := [0]
  operandBatchingDims := []
  startIndicesBatchingDims := []
  startIndexMap := [0]
  indexVectorDim := 1
  sliceSizes := ![1, 2]
  wf := gather_S50000x2_S650000x1_S650000x2_1_0_n_n_0_1_12_wf
def scatter_S50000x2_S650000x1_S650000x2_1_0_0_1 : ScatterDims S50000x2 S650000x1 S650000x2 where
  updateWindowDims := [1]
  insertedWindowDims := [0]
  scatterDimsToOperandDims := [0]
  indexVectorDim := 1
  wf := scatter_S50000x2_S650000x1_S650000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x2 : Shape := ⟨2, ![50000, 2]⟩
abbrev S650000x2 : Shape := ⟨2, ![650000, 2]⟩
abbrev S1x2 : Shape := ⟨2, ![1, 2]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S650000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S50000x128, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x1, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S50000x128, .f32⟩
  | .hbm, ⟨61, _⟩ => ⟨S650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x2, .f32⟩
  | .hbm, ⟨70, _⟩ => ⟨S_, .i32⟩
  | .hbm, ⟨71, _⟩ => ⟨S650000, .i32⟩
  | .hbm, ⟨72, _⟩ => ⟨S650000, .i1⟩
  | .hbm, ⟨73, _⟩ => ⟨S_, .i32⟩
  | .hbm, ⟨74, _⟩ => ⟨S650000, .i32⟩
  | .hbm, ⟨75, _⟩ => ⟨S650000, .i32⟩
  | .hbm, ⟨76, _⟩ => ⟨S650000, .i32⟩
  | .hbm, ⟨77, _⟩ => ⟨S650000x1, .i32⟩
  | .hbm, ⟨78, _⟩ => ⟨S650000x2, .f32⟩
  | .hbm, ⟨79, _⟩ => ⟨S650000x1, .f32⟩
  | .hbm, ⟨80, _⟩ => ⟨S650000x2, .f32⟩
  | .hbm, ⟨81, _⟩ => ⟨S650000x2, .f32⟩
  | .hbm, ⟨82, _⟩ => ⟨S_, .f32⟩
  | .hbm, ⟨83, _⟩ => ⟨S50000x2, .f32⟩
  | .hbm, ⟨84, _⟩ => ⟨S650000x1, .i32⟩
  | .hbm, ⟨85, _⟩ => ⟨S50000x2, .f32⟩
  | .hbm, ⟨86, _⟩ => ⟨S1x2, .f32⟩
  | .hbm, ⟨87, _⟩ => ⟨S50000x2, .f32⟩
  | .hbm, ⟨88, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x2_0_1 : S650000x1.BroadcastsInDim S650000x2 (![0, 1] : Fin 2 → Fin S650000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x2_S50000x2_1_0_0_1_n_n_wf : DotDims.WF S50000x128 S128x2 S50000x2 [1] [0] [0] [1] [] []
  gather_S50000x2_S650000x1_S650000x2_1_0_n_n_0_1_12_wf : GatherDims.WF S50000x2 S650000x1 S650000x2 [1] [0] [] [0] [] 1 ![1, 2]
  scatter_S50000x2_S650000x1_S650000x2_1_0_0_1_wf : ScatterDims.WF S50000x2 S650000x1 S650000x2 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def gather_S50000x2_S650000x1_S650000x2_1_0_n_n_0_1_12 : GatherDims S50000x2 S650000x1 S650000x2 where
  offsetDims := [1]
  collapsedSliceDims := [0]
  operandBatchingDims := []
  startIndicesBatchingDims := []
  startIndexMap := [0]
  indexVectorDim := 1
  sliceSizes := ![1, 2]
  wf := gather_S50000x2_S650000x1_S650000x2_1_0_n_n_0_1_12_wf
def scatter_S50000x2_S650000x1_S650000x2_1_0_0_1 : ScatterDims S50000x2 S650000x1 S650000x2 where
  updateWindowDims := [1]
  insertedWindowDims := [0]
  scatterDimsToOperandDims := [0]
  indexVectorDim := 1
  wf := scatter_S50000x2_S650000x1_S650000x2_1_0_0_1_wf

class Facts : Prop extends Facts₀ where

variable [Facts]
-- ==== Proof.KernelRun.lean ====
/-
  The idealized kernel's whole run with its result named. The program is seven segments in order — three stretches of
  host operations, the first dense transform's region, a stretch, the second region, a last stretch — and the launch
  theorem for such a chain ends with every unscoped buffer at the last boundary's contents. Reading the result buffer
  there, beside the six argument buffers, gives the run in the form the value claim needs: the result is the last
  boundary's contents at the result's reference, and the arguments are as launched.
-/
import proofs.«179779_j17386027614713_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents, and the six arguments end as launched. -/
theorem run : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibRowBias.lean ====
/-
  A vector laid along every row of a matrix, read at an entry. A kernel spells it as the broadcast down the rows of the
  vector's one-row cast; a host program as two broadcasts, first to a one-row matrix along axis 1 and then down the rows.
  Either way the entry at row r and column k is the vector's entry k. Nothing here depends on a program or on the
  element type.
-/
import Idealize.ShloMosaic.Lib.Pipeline.Value
import Idealize.ShloMosaic.Lib.ValueIdx
import Idealize.ShloMosaic.Lib.KernelVsHost

namespace Cert.LibRowBias

open Idealize.ShloMosaic Idealize.ShloMosaic.ValueIdx

variable {α : Type}

/-- The kernel's spelling: the vector cast to one row, the row broadcast down m rows. -/
theorem rowCast_broadcast_apply {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (k : Fin n) :
    broadcastTo ⟨2, ![m, n]⟩ (shapeCast ⟨2, ![1, n]⟩ b h1) hb (ix2 p k) = b (ix1 k) := by
  have e1 := broadcastTo_apply (shapeCast ⟨2, ![1, n]⟩ b h1) hb (ix2 p k) (ix2 (0 : Fin 1) k) (by
    intro a
    match a with
    | ⟨0, _⟩ => rfl
    | ⟨1, _⟩ =>
      show k.val = if n = 1 then 0 else k.val
      split
      · have := k.isLt; omega
      · rfl)
  have e2 := shapeCast_apply b h1 (ix2 (0 : Fin 1) k) (ix1 k) (by
    rw [Shape.rowMajor_val_two, Shape.rowMajor_val_one]; show k.val = 0 * n + k.val; omega)
  exact e1.trans e2

/-- The host's spelling: the vector broadcast along axis 1 to one row, the row broadcast down m rows. -/
theorem row_broadcastInDim_apply {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (k : Fin n) :
    broadcastInDim ⟨2, ![m, n]⟩ ![0, 1] hd2 (broadcastInDim ⟨2, ![1, n]⟩ ![1] hd1 b) (ix2 r k) = b (ix1 k) := by
  refine (broadcastInDim_oneRow_apply hd2 _ r k).trans ?_
  refine broadcastInDim_apply ![1] hd1 b (ix2 (0 : Fin 1) k) (ix1 k) ?_
  intro a
  match a with
  | ⟨0, _⟩ =>
    show k.val = if n = 1 then 0 else k.val
    split
    · have := k.isLt; omega
    · rfl

end Cert.LibRowBias
-- ==== Proof.RegionValues.lean ====
/-
  What each of the two dense transforms leaves in its output array, as one function of the arrays the region finds.

  Both regions walk the 50000 rows in ten blocks of 5000. At a block the first body multiplies the block of X (5000 × 128)
  by the whole of W (128 × 128): entry (p, q) of the block is the sum over k of X(5000·t + p, k) · W(k, q). The second body
  first adds the bias row to the block of A and takes the maximum with zero, then multiplies by the whole of W (128 × 2).
  A change of float format is the identity on the extended reals, so the casts to the narrow format drop out. Each
  block written back is therefore the restriction of ONE whole-array function to the block's rows, the ten blocks cover
  the array, and the array ends holding that function.
-/
import proofs.«179779_j17386027614713_1_alg».proof.Proof.Gen.KernelIdeal.Frame
import proofs.«179779_j17386027614713_1_alg».proof.Proof.LibMatmulAt
import proofs.«179779_j17386027614713_1_alg».proof.Proof.LibRowBias
import Idealize.ShloMosaic.Lib.Pipeline.Value
import Idealize.ShloMosaic.Lib.ValueIdx
import Idealize.ShloMosaic.PureOps.Ideal.Laws

noncomputable section

namespace Cert.KernelIdeal.RegionValue

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-! ## The first dense transform -/

/-- X · W on whole arrays: entry (r, q) is the sum over k of X(r, k) · W(k, q). -/
def dense (X : FVec Ideal S50000x128 .f32) (W : FVec Ideal S128x128 .f32) : FVec Ideal S50000x128 .f32 :=
  fun i => ∑ k : Fin 128, X (ix2 (i 0) k) * W (ix2 k (i 1))

/-- The body's stored value at an entry of the block: the product into the zero accumulator is the plain sum. -/
theorem pay0_apply (x : Vec Ideal S5000x128 .f32) (w : Vec Ideal S128x128 .f32) (j : S5000x128.Idx) :
    k0_pay1 x w j = ∑ k : Fin 128, x (ix2 (j 0) k) * w (ix2 k (j 1)) := by
  unfold k0_pay1
  exact Cert.KernelIdeal.Hand.matmul_zero_plain_apply dot_S5000x128_S128x128_S5000x128_1_0_0_1_n_n rfl none _ _ j

/-- The index maps over the grid: the row block of X and of the output is the point, W is fetched whole. -/
theorem idx_facts0 : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) = t.val :=
  (by decide +kernel : ∀ t : Fin grid0.N, _)

/-- What point t writes back is block t of the whole product. -/
theorem flushed0 (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨e0, e1, e2, e3, e4, e5⟩ := idx_facts0 t
  show k0_pay1 (iblk0 V c 0 t) (iblk0 V c 1 t) j = dense (V c main_arg0) (V c main_arg2) (((cfg0.win 2).blk t).view.emb j)
  refine (pay0_apply (iblk0 V c 0 t) (iblk0 V c 1 t) j).trans ?_
  unfold dense
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  refine congrArg₂ _ ?_ ?_
  · show V c main_arg0 (((cfg0.win 0).blk t).view.emb (ix2 (j 0) k)) = V c main_arg0 (ix2 ((((cfg0.win 2).blk t).view.emb j) 0) k)
    exact congrArg _ h0
  · show V c main_arg2 (((cfg0.win 1).blk t).view.emb (ix2 k (j 1))) = V c main_arg2 (ix2 k ((((cfg0.win 2).blk t).view.emb j) 1))
    exact congrArg _ h1

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r lies in the block of point r / 5000: the ten blocks cover the array. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := by rw [show cfg0.N = 10 from N_0]; omega
  obtain ⟨e0, e1, e2, e3, e4, e5⟩ := idx_facts0 ⟨(i 0).val / 5000, hN⟩
  have e5' : win0_2.index ⟨(i 0).val / 5000, hN⟩ (0 : Fin 2) = (i 0).val / 5000 := e5
  refine ⟨⟨(i 0).val / 5000, hN⟩, flush0_2 _, ?_⟩
  rw [mem_blk0]
  intro a
  match a with
  | ⟨0, _⟩ => show win0_2.index ⟨(i 0).val / 5000, hN⟩ (0 : Fin 2) * 5000 ≤ (i 0).val ∧ (i 0).val < win0_2.index ⟨(i 0).val / 5000, hN⟩ (0 : Fin 2) * 5000 + 5000; omega
  | ⟨1, _⟩ => show win0_2.index ⟨(i 0).val / 5000, hN⟩ (1 : Fin 2) * 128 ≤ (i 1).val ∧ (i 1).val < win0_2.index ⟨(i 0).val / 5000, hN⟩ (1 : Fin 2) * 128 + 128; omega

/-- The first region's output array ends at the whole product of the arrays it found. -/
theorem final0 (c : Dev nD) : (dat0 V c).arrAt 2 cfg0.N = dense (V c main_arg0) (V c main_arg2) :=
  (dat0 V c).arrAt_eq_of_cover 2 (dense (V c main_arg0) (V c main_arg2)) (fun t _ => flushed0 V c t) cover0

/-! ## The second dense transform: bias, maximum with zero, product -/

/-- max(A + b, 0) · W on whole arrays: entry (r, q) is the sum over k of max(A(r, k) + b(k), 0) · W(k, q). -/
def reluDense (A : FVec Ideal S50000x128 .f32) (b : FVec Ideal S128 .f32) (W : FVec Ideal S128x2 .f32) : FVec Ideal S50000x2 .f32 :=
  fun i => ∑ k : Fin 128, max (A (ix2 (i 0) k) + b (ix1 k)) (Ideal.ofBits .f32 0x00000000#32) * W (ix2 k (i 1))

/-- The body's stored value at an entry of the block. -/
theorem pay1_apply (x : Vec Ideal S5000x128 .f32) (b : Vec Ideal S128 .f32) (w : Vec Ideal S128x2 .f32) (j : S5000x2.Idx) :
    k1_pay1 x b w j = ∑ k : Fin 128, max (x (ix2 (j 0) k) + b (ix1 k)) (Ideal.ofBits .f32 0x00000000#32) * w (ix2 k (j 1)) := by
  unfold k1_pay1
  refine (Cert.KernelIdeal.Hand.matmul_zero_plain_apply dot_S5000x128_S128x2_S5000x2_1_0_0_1_n_n rfl none _ _ j).trans ?_
  refine Finset.sum_congr rfl fun k _ => ?_
  refine congrArg₂ _ ?_ rfl
  show max (shapeCast S5000x128 x shapeCasts_S5000x128_S5000x128 (ix2 (j 0) k)
      + broadcastTo S5000x128 (shapeCast S1x128 b shapeCasts_S128_S1x128) broadcasts_S1x128_S5000x128 (ix2 (j 0) k))
      (Ideal.ofBits .f32 0x00000000#32) = _
  rw [shapeCast_self]
  exact congrArg (fun v => max (x (ix2 (j 0) k) + v) (Ideal.ofBits .f32 0x00000000#32))
    (Cert.LibRowBias.rowCast_broadcast_apply b shapeCasts_S128_S1x128 broadcasts_S1x128_S5000x128 (j 0) k)

/-- The index maps over the grid: the row block of A and of the output is the point; b and W are fetched whole. -/
theorem idx_facts1 : ∀ t : Fin cfg1.N, win1_0.index t (0 : Fin 2) = win1_3.index t (0 : Fin 2)
    ∧ win1_0.index t (1 : Fin 2) = 0 ∧ win1_3.index t (1 : Fin 2) = 0
    ∧ win1_1.index t (0 : Fin 1) = 0
    ∧ win1_2.index t (0 : Fin 2) = 0 ∧ win1_2.index t (1 : Fin 2) = 0
    ∧ win1_3.index t (0 : Fin 2) = t.val :=
  (by decide +kernel : ∀ t : Fin grid1.N, _)

/-- What point t writes back is block t of the whole function. -/
theorem flushed1 (c : Dev nD) (t : Fin cfg1.N) :
    (dat1 V c).flushed 3 t = ((cfg1.win 3).blk t).view.read (Elt Ideal) (reluDense (V c main_v43) (V c main_arg3) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128) hz1, View.ld_unit_zero (S := S128x2) hz]
  funext j
  obtain ⟨e0, e1, e2, e3, e4, e5, e6⟩ := idx_facts1 t
  show k1_pay1 (iblk1 V c 0 t) (iblk1 V c 1 t) (iblk1 V c 2 t) j
    = reluDense (V c main_v43) (V c main_arg3) (V c main_arg4) (((cfg1.win 3).blk t).view.emb j)
  refine (pay1_apply (iblk1 V c 0 t) (iblk1 V c 1 t) (iblk1 V c 2 t) j).trans ?_
  unfold reluDense
  refine Finset.sum_congr rfl fun k _ => ?_
  have h0 : ((cfg1.win 0).blk t).view.emb (ix2 (j 0) k) = ix2 ((((cfg1.win 3).blk t).view.emb j) 0) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have h1 : ((cfg1.win 1).blk t).view.emb (ix1 k) = ix1 k := by
    funext a; apply Fin.ext
    match a with
    | ⟨0, _⟩ => show win1_1.index t (0 : Fin 1) * 128 + 1 * k.val = k.val; omega
  have h2 : ((cfg1.win 2).blk t).view.emb (ix2 k (j 1)) = ix2 k ((((cfg1.win 3).blk t).view.emb j) 1) := by
    funext a; apply Fin.ext
    match a with
    | ⟨0, _⟩ => show win1_2.index t (0 : Fin 2) * 128 + 1 * k.val = k.val; omega
    | ⟨1, _⟩ => show win1_2.index t (1 : Fin 2) * 2 + 1 * (j 1).val = win1_3.index t (1 : Fin 2) * 2 + 1 * (j 1).val; omega
  refine congrArg₂ _ (congrArg₂ _ (congrArg₂ _ ?_ ?_) rfl) ?_
  · show V c main_v43 (((cfg1.win 0).blk t).view.emb (ix2 (j 0) k)) = V c main_v43 (ix2 ((((cfg1.win 3).blk t).view.emb j) 0) k)
    exact congrArg _ h0
  · show V c main_arg3 (((cfg1.win 1).blk t).view.emb (ix1 k)) = V c main_arg3 (ix1 k)
    exact congrArg _ h1
  · show V c main_arg4 (((cfg1.win 2).blk t).view.emb (ix2 k (j 1))) = V c main_arg4 (ix2 k ((((cfg1.win 3).blk t).view.emb j) 1))
    exact congrArg _ h2

/-- An index of the output array is in point t's block iff each coordinate is in the block's range on its axis. -/
theorem mem_blk1 (t : Fin cfg1.N) (i : S50000x2.Idx) :
    i ∈ ((cfg1.win 3).blk t).view.set ↔ ∀ a : Fin 2, win1_3.index t a * S5000x2.size a ≤ (i a).val ∧ (i a).val < win1_3.index t a * S5000x2.size a + S5000x2.size a := by
  show i ∈ ((View.whole main_v44).slice (win1_3.rect t)).set ↔ _
  rw [View.set_slice_whole, Rect.mem_set_unit]
  exact Iff.rfl

/-- Row r lies in the block of point r / 5000: the ten blocks cover the array. -/
theorem cover1 (i : S50000x2.Idx) :
    ∃ t : Fin cfg1.N, (cfg1.win 3).flush t = true ∧ i ∈ ((cfg1.win 3).blk t).view.set := by
  have hi0 : (i 0).val < 50000 := (i 0).isLt
  have hi1 : (i 1).val < 2 := (i 1).isLt
  have hN : (i 0).val / 5000 < cfg1.N := by rw [show cfg1.N = 10 from N_1]; omega
  obtain ⟨e0, e1, e2, e3, e4, e5, e6⟩ := idx_facts1 ⟨(i 0).val / 5000, hN⟩
  have e6' : win1_3.index ⟨(i 0).val / 5000, hN⟩ (0 : Fin 2) = (i 0).val / 5000 := e6
  refine ⟨⟨(i 0).val / 5000, hN⟩, flush1_3 _, ?_⟩
  rw [mem_blk1]
  intro a
  match a with
  | ⟨0, _⟩ => show win1_3.index ⟨(i 0).val / 5000, hN⟩ (0 : Fin 2) * 5000 ≤ (i 0).val ∧ (i 0).val < win1_3.index ⟨(i 0).val / 5000, hN⟩ (0 : Fin 2) * 5000 + 5000; omega
  | ⟨1, _⟩ => show win1_3.index ⟨(i 0).val / 5000, hN⟩ (1 : Fin 2) * 2 ≤ (i 1).val ∧ (i 1).val < win1_3.index ⟨(i 0).val / 5000, hN⟩ (1 : Fin 2) * 2 + 2; omega

/-- The second region's output array ends at the whole function of the arrays it found. -/
theorem final1 (c : Dev nD) :
    (dat1 V c).arrAt 3 cfg1.N = reluDense (V c main_v43) (V c main_arg3) (V c main_arg4) :=
  (dat1 V c).arrAt_eq_of_cover 3 (reluDense (V c main_v43) (V c main_arg3) (V c main_arg4)) (fun t _ => flushed1 V c t) cover1

end Cert.KernelIdeal.RegionValue

end
-- ==== Proof.BoundaryValues.lean ====
/-
  A region seen from the host program around it. The first region leaves its output array at X · W of the two arrays it
  read and every other buffer as it found it; the second leaves its output array at max(A + b, 0) · W of the three arrays
  it read and every other buffer as it found it. So at a boundary after a region, a buffer's contents are either that
  function of the entry contents (the region's own output) or the entry contents themselves (its inputs, which the
  pipeline only reads, and the buffers that bypass it). Stated in the form in which a host operation's result is read.
-/
import proofs.«179779_j17386027614713_1_alg».proof.Proof.RegionValues

noncomputable section

namespace Cert.KernelIdeal.Boundary

open Idealize.ShloMosaic Idealize.ShloMosaic.TcCoe Idealize.SL.Sem
open Cert.KernelIdeal Cert.KernelIdeal.Gen Cert.KernelIdeal.RegionValue

variable (m : (ℓ : Loc nD τ sig) → Buf (Elt Ideal) ℓ) (ρ : Dev nD → PrngReg)

/-- After the first region its output holds the product of the entry contents of X and W. -/
theorem W4_out (c : Dev nD) :
    W4 m ρ c (no_index (Proc.devRef .tc main_v30))
      = dense (W3 m ρ c (Proc.devRef .tc main_arg0)) (W3 m ρ c (Proc.devRef .tc main_arg2)) :=
  (W4_arr m ρ c 2).trans (final0 (V3 m ρ) c)

/-- After the first region every other buffer holds what it held at the region's entry. -/
theorem W4_ne (c : Dev nD) {r : Ref sig .tc} (h : r ≠ main_v30) :
    W4 m ρ c (no_index (Proc.devRef .tc r)) = W3 m ρ c (Proc.devRef .tc r) := by
  by_cases h0 : r = main_arg0
  · subst h0
    exact (W4_arr m ρ c 0).trans (((dat0 (V3 m ρ) c).arrAt_in 0 rfl _).trans (A_eq0 (V3 m ρ) c 0))
  by_cases h2 : r = main_arg2
  · subst h2
    exact (W4_arr m ρ c 1).trans (((dat0 (V3 m ρ) c).arrAt_in 1 rfl _).trans (A_eq0 (V3 m ρ) c 1))
  refine W4_of_ne m ρ c r fun w => ?_
  match w with
  | ⟨0, _⟩ => exact fun e => h0 e.symm
  | ⟨1, _⟩ => exact fun e => h2 e.symm
  | ⟨2, _⟩ => exact fun e => h e.symm

/-- After the second region its output holds max(A + b, 0) · W of the entry contents of A, b and W. -/
theorem W6_out (c : Dev nD) :
    W6 m ρ c (no_index (Proc.devRef .tc main_v44))
      = reluDense (W5 m ρ c (Proc.devRef .tc main_v43)) (W5 m ρ c (Proc.devRef .tc main_arg3)) (W5 m ρ c (Proc.devRef .tc main_arg4)) :=
  (W6_arr m ρ c 3).trans (final1 (V5 m ρ) c)

/-- After the second region every other buffer holds what it held at the region's entry. -/
theorem W6_ne (c : Dev nD) {r : Ref sig .tc} (h : r ≠ main_v44) :
    W6 m ρ c (no_index (Proc.devRef .tc r)) = W5 m ρ c (Proc.devRef .tc r) := by
  by_cases h0 : r = main_v43
  · subst h0
    exact (W6_arr m ρ c 0).trans (((dat1 (V5 m ρ) c).arrAt_in 0 rfl _).trans (A_eq1 (V5 m ρ) c 0))
  by_cases h1 : r = main_arg3
  · subst h1
    exact (W6_arr m ρ c 1).trans (((dat1 (V5 m ρ) c).arrAt_in 1 rfl _).trans (A_eq1 (V5 m ρ) c 1))
  by_cases h2 : r = main_arg4
  · subst h2
    exact (W6_arr m ρ c 2).trans (((dat1 (V5 m ρ) c).arrAt_in 2 rfl _).trans (A_eq1 (V5 m ρ) c 2))
  refine W6_of_ne m ρ c r fun w => ?_
  match w with
  | ⟨0, _⟩ => exact fun e => h0 e.symm
  | ⟨1, _⟩ => exact fun e => h1 e.symm
  | ⟨2, _⟩ => exact fun e => h2 e.symm
  | ⟨3, _⟩ => exact fun e => h e.symm

end Cert.KernelIdeal.Boundary

end
-- ==== Proof.ReferenceForms.lean ====
/-
  The reference's two dense layers as the same whole-array functions the kernel's regions leave.

  The reference's first layer is the host's product of X and W, which at an entry (r, q) is the sum over k of
  X(r, k) · W(k, q). Its second layer adds the bias, broadcast first to one row and then down the 50000 rows, takes the
  maximum with the zero splat, and multiplies by W: at (r, q) the sum over k of max(A(r, k) + b(k), 0) · W(k, q).
  Only the reading of a sum, a maximum and a broadcast at an index is used: no law of arithmetic, so nothing here needs an
  entry to be finite.
-/
import proofs.«179779_j17386027614713_1_alg».proof.Proof.Gen.ReferenceIdeal
import proofs.«179779_j17386027614713_1_alg».proof.Proof.RegionValues

noncomputable section

namespace Cert.ReferenceIdeal.Forms

open Idealize.ShloMosaic Idealize.ShloMosaic.ValueIdx
open Cert.ReferenceIdeal Cert.ReferenceIdeal.Gen
open Cert.KernelIdeal.RegionValue (dense reluDense)

/-- The first layer's product is the dense transform. -/
theorem dot1_eq (X : FVec Ideal S50000x128 .f32) (W : FVec Ideal S128x128 .f32) :
    Host.dotGeneral dot_S50000x128_S128x128_S50000x128_1_0_0_1_n_n none X W = dense X W := by
  funext i
  exact Cert.KernelIdeal.Hand.dotGeneral_plain_apply' dot_S50000x128_S128x128_S50000x128_1_0_0_1_n_n rfl none X W i

/-- The second layer — bias row, maximum with zero, product — is the kernel's second function. -/
theorem dot2_eq (A : FVec Ideal S50000x128 .f32) (b : FVec Ideal S128 .f32) (W : FVec Ideal S128x2 .f32) :
    Host.dotGeneral dot_S50000x128_S128x2_S50000x2_1_0_0_1_n_n none
      (maximumf (addf A (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32))) W
      = reluDense A b W := by
  funext i
  refine (Cert.KernelIdeal.Hand.dotGeneral_plain_apply' dot_S50000x128_S128x2_S50000x2_1_0_0_1_n_n rfl none _ W i).trans ?_
  unfold reluDense
  refine Finset.sum_congr rfl fun k _ => ?_
  refine congrArg₂ _ ?_ rfl
  show max (A (ix2 (i 0) k)
      + broadcastInDim S50000x128 ![0, 1] bcast_S1x128_S50000x128_0_1 (broadcastInDim S1x128 ![1] bcast_S128_S1x128_1 b) (ix2 (i 0) k))
      (broadcastInDim S50000x128 ![] bcast_S_S50000x128 (constant (F := Ideal) S_ .f32 0x00000000#32) (ix2 (i 0) k)) = _
  have hb := Cert.LibRowBias.row_broadcastInDim_apply b bcast_S128_S1x128_1 bcast_S1x128_S50000x128_0_1 (i 0) k
  have hz := broadcastInDim_apply ![] bcast_S_S50000x128 (constant (F := Ideal) S_ .f32 0x00000000#32) (ix2 (i 0) k) ix0 (fun a => a.elim0)
  exact congrArg₂ max (congrArg (fun v => A (ix2 (i 0) k) + v) hb) hz

end Cert.ReferenceIdeal.Forms

end
-- ==== Proof.LibTypedRef.lean ====
/-
  A typed reference to a buffer carries the equation between the buffer's type and the value's type, and a value
  crosses between the two by transport along it.  Carried to the buffer's type and back (or back and forth the other
  way) a value is unchanged.  A host line written over typed references wraps its function in one crossing per operand
  and one per result; when many such lines are read back as one composed term the crossings nest in pairs, result of
  one line against operand of the next, and rewriting with these equations removes every pair, leaving the plain
  composition of the lines' functions.
-/
import Idealize.ShloMosaic.Lib.StableHlo

namespace Cert.LibTypedRef

open Idealize.ShloMosaic Idealize.ShloMosaic.StableHlo

variable {sig : RefSig} {Val : EltTy → Type} {T : BufTy}

/-- A value carried to the buffer's own type and back is the value. -/
theorem ofBuf_toBuf (x : TRef sig T) (v : T.Contents Val) : x.ofBuf (x.toBuf v) = v := by
  obtain ⟨r, rfl, h2, h3⟩ := x
  rfl

/-- Contents of the buffer carried to the value's type and back are the contents. -/
theorem toBuf_ofBuf (x : TRef sig T) (v : x.ref.ty.Contents Val) : x.toBuf (x.ofBuf v) = v := by
  obtain ⟨r, rfl, h2, h3⟩ := x
  rfl

end Cert.LibTypedRef
-- ==== Proof.ResultEq.lean ====
/-
  The two programs' results are one array.

  Outside the two dense transforms the kernel's program and the reference are the same host operations in the same order:
  source and destination lists with self-loops, degrees by a scatter-add of ones, the symmetric normalisation
  1/sqrt(deg) where deg > 0, the per-edge weight, and per layer a row gather, the scaling by the weight, a scatter-add over
  destinations, and last the output bias. The kernel's regions stand where the reference has its two products, and each
  region leaves the function the reference's product computes. So walking the kernel's program from the launch memory —
  a host operation's result read at its own buffer, a region's exit read as a result too — gives, operation for
  operation, the reference's composed term with the two products written as the dense transforms; on memories that agree on
  the six arguments the two terms are the same.
-/
import proofs.«179779_j17386027614713_1_alg».proof.Proof.RefRun
import proofs.«179779_j17386027614713_1_alg».proof.Proof.KernelRun
import proofs.«179779_j17386027614713_1_alg».proof.Proof.BoundaryValues
import proofs.«179779_j17386027614713_1_alg».proof.Proof.ReferenceForms
import proofs.«179779_j17386027614713_1_alg».proof.Proof.LibTypedRef

set_option maxRecDepth 16384

noncomputable section

namespace Cert.ResultEq

open Idealize.ShloMosaic Idealize.ShloMosaic.TcCoe Idealize.SL.Sem Idealize.ShloMosaic.StableHlo
open Cert.KernelIdeal.Boundary Cert.ReferenceIdeal.Forms

/-- An edge row followed by the self-loops: the two-piece join along the one axis, as a function of its two pieces. -/
def withLoops (a : (⟨Cert.KernelIdeal.S600000, .i32⟩ : BufTy).Contents (Elt Ideal)) (b : (⟨Cert.KernelIdeal.S50000, .i32⟩ : BufTy).Contents (Elt Ideal)) :
    (⟨Cert.KernelIdeal.S650000, .i32⟩ : BufTy).Contents (Elt Ideal) :=
  concatenate Cert.KernelIdeal.S650000 0 [⟨Cert.KernelIdeal.S600000, a⟩, ⟨Cert.KernelIdeal.S50000, b⟩]
    Cert.KernelIdeal.Gen.concatenates_S600000_S50000_S650000_d0

/-- The join of the source row's buffer and the self-loops' buffer, the pieces at their buffers' own types. -/
theorem withLoops_src
    (a : (Proc.devRef .tc Cert.KernelIdeal.main_v2 : DevRef Cert.KernelIdeal.τ Cert.KernelIdeal.sig).ty.Contents (Elt Ideal))
    (b : (Proc.devRef .tc Cert.KernelIdeal.main_v0 : DevRef Cert.KernelIdeal.τ Cert.KernelIdeal.sig).ty.Contents (Elt Ideal)) :
    @concatenate (Elt Ideal EltTy.i32) Cert.KernelIdeal.S650000 0
      [@Sigma.mk Shape (fun s => s.Idx → Elt Ideal EltTy.i32) Cert.KernelIdeal.S600000 a,
       @Sigma.mk Shape (fun s => s.Idx → Elt Ideal EltTy.i32) Cert.KernelIdeal.S50000 b]
      Cert.KernelIdeal.Gen.concatenates_S600000_S50000_S650000_d0 = withLoops a b := rfl

/-- The same for the destination row's buffer. -/
theorem withLoops_dst
    (a : (Proc.devRef .tc Cert.KernelIdeal.main_v5 : DevRef Cert.KernelIdeal.τ Cert.KernelIdeal.sig).ty.Contents (Elt Ideal))
    (b : (Proc.devRef .tc Cert.KernelIdeal.main_v0 : DevRef Cert.KernelIdeal.τ Cert.KernelIdeal.sig).ty.Contents (Elt Ideal)) :
    @concatenate (Elt Ideal EltTy.i32) Cert.KernelIdeal.S650000 0
      [@Sigma.mk Shape (fun s => s.Idx → Elt Ideal EltTy.i32) Cert.KernelIdeal.S600000 a,
       @Sigma.mk Shape (fun s => s.Idx → Elt Ideal EltTy.i32) Cert.KernelIdeal.S50000 b]
      Cert.KernelIdeal.Gen.concatenates_S600000_S50000_S650000_d0 = withLoops a b := rfl

/-! The normalisation's outlined selection is written over typed references; at its four buffers the type equation holds
    by computation, so carrying a value across it changes nothing. -/

theorem ofBuf_v12 (p : (Cert.KernelIdeal.main_v12 : Ref Cert.KernelIdeal.sig .tc).ty = ⟨Cert.KernelIdeal.S50000, .i1⟩) (q s)
    (v : (Cert.KernelIdeal.main_v12 : Ref Cert.KernelIdeal.sig .tc).ty.Contents (Elt Ideal)) :
    (TRef.of Cert.KernelIdeal.main_v12 p q s : TRef Cert.KernelIdeal.sig ⟨Cert.KernelIdeal.S50000, .i1⟩).ofBuf v = v := rfl

theorem ofBuf_v13 (p : (Cert.KernelIdeal.main_v13 : Ref Cert.KernelIdeal.sig .tc).ty = ⟨Cert.KernelIdeal.S50000, .f32⟩) (q s)
    (v : (Cert.KernelIdeal.main_v13 : Ref Cert.KernelIdeal.sig .tc).ty.Contents (Elt Ideal)) :
    (TRef.of Cert.KernelIdeal.main_v13 p q s : TRef Cert.KernelIdeal.sig ⟨Cert.KernelIdeal.S50000, .f32⟩).ofBuf v = v := rfl

theorem ofBuf_cst2 (p : (Cert.KernelIdeal.main_cst_2 : Ref Cert.KernelIdeal.sig .tc).ty = ⟨Cert.KernelIdeal.S_, .f32⟩) (q s)
    (v : (Cert.KernelIdeal.main_cst_2 : Ref Cert.KernelIdeal.sig .tc).ty.Contents (Elt Ideal)) :
    (TRef.of Cert.KernelIdeal.main_cst_2 p q s : TRef Cert.KernelIdeal.sig ⟨Cert.KernelIdeal.S_, .f32⟩).ofBuf v = v := rfl

theorem toBuf_v14 (p : (Cert.KernelIdeal.main_v14 : Ref Cert.KernelIdeal.sig .tc).ty = ⟨Cert.KernelIdeal.S50000, .f32⟩) (q s)
    (v : (⟨Cert.KernelIdeal.S50000, .f32⟩ : BufTy).Contents (Elt Ideal)) :
    (TRef.of Cert.KernelIdeal.main_v14 p q s : TRef Cert.KernelIdeal.sig ⟨Cert.KernelIdeal.S50000, .f32⟩).toBuf v = v := rfl

set_option maxHeartbeats 4000000 in
/-- From memories agreeing on the six arguments, the reference's composed result term is the contents of the kernel's result
    buffer at the program's last boundary. -/
theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.RunP.res_main_v64 (F := Ideal) m' c
      = Cert.KernelIdeal.Gen.W7 m ρ c (Proc.devRef .tc Cert.KernelIdeal.main_v60) := by
  unfold Cert.ReferenceIdeal.RunP.res_main_v64
  rw [h0, h1, h2, h3, h4, h5, dot2_eq, dot1_eq]
  symm
  simp (disch := decide) only [Cert.KernelIdeal.Gen.W7, Cert.KernelIdeal.Gen.W5, Cert.KernelIdeal.Gen.W3, Cert.KernelIdeal.Gen.W2,
    Cert.KernelIdeal.Gen.W1, Cert.KernelIdeal.Gen.hostOps0, Cert.KernelIdeal.Gen.hostOps0_1, Cert.KernelIdeal.Gen.hostOps0_2,
    Cert.KernelIdeal.Gen.hostOps1, Cert.KernelIdeal.Gen.hostOps2,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    W4_out, W4_ne, W6_out, W6_ne]
  rw [withLoops_dst, withLoops_src]
  simp (disch := decide) only [nullary_result', unary_result', binary_result', reshape_result',
    nullary_result_ne', unary_result_ne', binary_result_ne', reshape_result_ne']
  simp only [Cert.LibTypedRef.ofBuf_toBuf, Cert.LibTypedRef.toBuf_ofBuf, ofBuf_v12, ofBuf_v13, ofBuf_cst2, toBuf_v14]
  rfl

end Cert.ResultEq

end
-- ==== Proof.lean ====
/-
  A two-layer graph convolution: out = Â · max(Â · (X · W1) + b1, 0) · W2 + b2, where Â scales each edge (self-loops
  added) by 1/sqrt(deg(src)) · 1/sqrt(deg(dst)) and sums messages over destinations. The kernel's program computes the two
  dense transforms X · W1 and max(· + b1, 0) · W2 in two pipelined regions, ten row blocks of 5000 each, and leaves the
  gathers, the scaling and the scatter-adds to the host; the reference computes everything on the host.

  The three frames: the two kernel programs' frames are the launch theorem over their segments; the reference, a straight
  line of host operations, runs to its composed term. The idealization rewrote nothing, so there is nothing to preserve.
  The value claim: each region leaves in its output array one whole-array function of the arrays it read — the sum over
  the 128 contracted entries, with the bias and the maximum with zero inside the second — and that is what the reference's
  product computes at every entry; every other operation is the same on both sides, so from memories that agree on the
  arguments both programs end at the same array. Only the reading of sums, maxima and broadcasts at an index is used, no
  law of arithmetic that could fail at an infinity: the finiteness of the inputs is never opened.
-/
import proofs.«179779_j17386027614713_1_alg».proof.Defs
import proofs.«179779_j17386027614713_1_alg».proof.Proof.Gen.Kernel
import proofs.«179779_j17386027614713_1_alg».proof.Proof.Gen.Kernel.Skeleton
import proofs.«179779_j17386027614713_1_alg».proof.Proof.Gen.Kernel.Launch
import proofs.«179779_j17386027614713_1_alg».proof.Proof.Gen.Kernel.Points
import proofs.«179779_j17386027614713_1_alg».proof.Proof.Gen.Kernel.Frame
import proofs.«179779_j17386027614713_1_alg».proof.Proof.Gen.KernelIdeal
import proofs.«179779_j17386027614713_1_alg».proof.Proof.Gen.KernelIdeal.Skeleton
import proofs.«179779_j17386027614713_1_alg».proof.Proof.Gen.KernelIdeal.Launch
import proofs.«179779_j17386027614713_1_alg».proof.Proof.Gen.KernelIdeal.Points
import proofs.«179779_j17386027614713_1_alg».proof.Proof.Gen.KernelIdeal.Frame
import proofs.«179779_j17386027614713_1_alg».proof.Proof.Gen.ReferenceIdeal
import proofs.«179779_j17386027614713_1_alg».proof.Proof.Gen.Pre_finite_inputs
import proofs.«179779_j17386027614713_1_alg».proof.Proof.RefRun
import proofs.«179779_j17386027614713_1_alg».proof.Proof.KernelRun
import proofs.«179779_j17386027614713_1_alg».proof.Proof.ResultEq
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs to its composed term; dropping the result leaves the frame. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both idealized programs end at the same result array: the kernel's result buffer at its last boundary, which is the
    reference's composed term on memories that agree on the arguments. -/
theorem algebraic : Cert.algebraic_KernelIdeal_ReferenceIdeal := by
  intro m ρ m' ρ' _ hagree
  refine ⟨fun c => Cert.KernelIdeal.Gen.W7 m ρ c (Proc.devRef .tc Cert.KernelIdeal.main_v60),
    Cert.KernelIdeal.RunValue.run (F := Ideal) m ρ, ?_⟩
  refine (θ_run Cert.ReferenceIdeal.defs _ _).mono (fun _ h c => ⟨(h c).1.trans ?_, (h c).2⟩)
    (Cert.ReferenceIdeal.RunP.run (F := Ideal) m' ρ')
  exact Cert.ResultEq.result_eq m ρ m' c (hagree c).1 (hagree c).2.1 (hagree c).2.2.1 (hagree c).2.2.2.1
    (hagree c).2.2.2.2.1 (hagree c).2.2.2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
